-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S5000x256 : Shape := ⟨2, ![5000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 26
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S50000x256, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 26
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«168487_j89240830476477_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.RegionProduct.lean ====
/-
  What the region leaves in its output array: the matrix product x * W.

  The region's grid has ten points. At point t the body loads rows 5000 t .. 5000 t + 4999 of x (its first window's
  block) and the whole of W (its second window's only block), multiplies them into the zero accumulator, and stores the
  5000 x 256 result whole; the pipeline writes it back as rows 5000 t .. 5000 t + 4999 of the output array. Entry (p, q)
  of the block is  sum_k x[5000 t + p, k] * W[k, q],  which is entry (5000 t + p, q) of x * W: every block is the
  restriction of the ONE array x * W. The ten blocks tile the 50000 rows (row r lies in block r / 5000), so after the
  region the output array is x * W.
-/
import proofs.«168487_j89240830476477_2_alg».proof.Proof.Gen.KernelIdeal.Frame
import proofs.«168487_j89240830476477_2_alg».proof.Proof.LibDotGeneralPlain
import Idealize.ShloMosaic.Lib.Pipeline.Value
import Idealize.ShloMosaic.Lib.ValueIdx

noncomputable section

open scoped BigOperators

namespace Cert.KernelIdeal.Product

open Cert.KernelIdeal Cert.KernelIdeal.Gen Idealize.ShloMosaic Idealize.ShloMosaic.TcCoe Idealize.ShloMosaic.ValueIdx
open Idealize.SL.Sem Cert.LibMatmulPlain Cert.LibDotGeneralPlain
open Idealize.ShloMosaic.Pipeline (Dat)

variable (m : (ℓ : Loc nD τ sig) → Buf (Elt Ideal) ℓ)

theorem zeros2 : (![0, 0] : Fin 2 → Nat) = fun _ => 0 := funext fun a => by fin_cases a <;> rfl

/-- The body's stored value at an entry: the row of the loaded x block against the column of the loaded W. -/
theorem block_entry (x0 : Vec Ideal S5000x256 .f32) (x1 : Vec Ideal S256x256 .f32) (p : Fin 5000) (q : Fin 256) :
    k0_pay1 (F := Ideal) x0 x1 (ix2 p q) = ∑ k : Fin 256, x0 (ix2 p k) * x1 (ix2 k q) := by
  unfold k0_pay1
  exact matmul_plain_zero_apply _ rfl _ x0 x1 p q

/-- The printed index maps over the ten points: the x window moves with the output window down the rows, the W window
    stays at its only block, and the output's block row is below ten. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every block row is some point's. -/
theorem idx_onto : ∀ b : Fin 10, ∃ t : Fin cfg0.N, win0_2.index t = ![b.val, 0] :=
  (by decide +kernel : ∀ b : Fin 10, ∃ t : Fin grid0.N, win0_2.index t = ![b.val, 0])

/-- The x block at point t, at (p, k), is x at row 5000 (block row) + p. -/
theorem read_x (c : Dev nD) (t : Fin cfg0.N) (p : Fin 5000) (k : Fin 256)
    (hb : win0_2.index t (0 : Fin 2) * 5000 + p.val < 50000) :
    iblk m c 0 t (ix2 p k) = V m c main_arg0 (ix2 ⟨win0_2.index t (0 : Fin 2) * 5000 + p.val, hb⟩ k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ =>
    show win0_0.index t (0 : Fin 2) * 5000 + 1 * p.val = win0_2.index t (0 : Fin 2) * 5000 + p.val
    omega
  | ⟨1, _⟩ =>
    show win0_0.index t (1 : Fin 2) * 256 + 1 * k.val = k.val
    omega

/-- The W block at any point is W. -/
theorem read_w (c : Dev nD) (t : Fin cfg0.N) (k q : Fin 256) :
    iblk m c 1 t (ix2 k q) = V m c main_arg4 (ix2 k q) := by
  obtain ⟨-, -, e2, e3, -⟩ := idx_facts t
  show V m c main_arg4 (((cfg0.win 1).blk t).view.emb (ix2 k q)) = _
  refine congrArg (V m c main_arg4) (funext fun a => Fin.ext ?_)
  match a with
  | ⟨0, _⟩ =>
    show win0_1.index t (0 : Fin 2) * 256 + 1 * k.val = k.val
    omega
  | ⟨1, _⟩ =>
    show win0_1.index t (1 : Fin 2) * 256 + 1 * q.val = q.val
    omega

/-- WHAT POINT t WRITES BACK is block t of x * W. -/
theorem flushed_eq (c : Dev nD) (t : Fin cfg0.N) :
    (dats m 0 c).flushed 2 t
      = ((cfg0.win 2).blk t).view.read (Elt Ideal) (matProd (V m c main_arg0) (V m c main_arg4)) := by
  show (cfg0.win 2).cut (grid0.coords t) ((dats m 0 c).after 2 t) = _
  rw [after0_2]
  unfold out0_2
  rw [View.canon_unit_zero zeros2]
  simp only [View.ld_unit_zero (S := S5000x256) zeros2, View.ld_unit_zero (S := S256x256) zeros2]
  obtain ⟨-, -, -, -, e4, e5⟩ := idx_facts t
  funext j
  have hj0 : (j 0).val < 5000 := (j 0).isLt
  have hj1 : (j 1).val < 256 := (j 1).isLt
  have hb : win0_2.index t (0 : Fin 2) * 5000 + (j 0).val < 50000 := by omega
  let p : Fin 5000 := ⟨(j 0).val, hj0⟩
  let q : Fin 256 := ⟨(j 1).val, hj1⟩
  have hj : j = ix2 p q := @eq_ix2 5000 256 j
  have hemb : (((cfg0.win 2).blk t).view.emb j : S50000x256.Idx)
      = ix2 (⟨win0_2.index t (0 : Fin 2) * 5000 + p.val, hb⟩ : Fin 50000) q := by
    funext a; apply Fin.ext
    match a with
    | ⟨0, _⟩ =>
      show win0_2.index t (0 : Fin 2) * 5000 + 1 * (j 0).val = win0_2.index t (0 : Fin 2) * 5000 + (j 0).val
      omega
    | ⟨1, _⟩ =>
      show win0_2.index t (1 : Fin 2) * 256 + 1 * (j 1).val = (j 1).val
      omega
  show k0_pay1 (iblk m c 0 t) (iblk m c 1 t) j
    = matProd (V m c main_arg0) (V m c main_arg4) (((cfg0.win 2).blk t).view.emb j)
  refine ((congrArg (k0_pay1 (iblk m c 0 t) (iblk m c 1 t)) hj).trans
    (block_entry (iblk m c 0 t) (iblk m c 1 t) p q)).trans
    (Eq.trans ?_ (congrArg (matProd (V m c main_arg0) (V m c main_arg4)) hemb.symm))
  rw [matProd_apply]
  refine Finset.sum_congr rfl fun k _ => ?_
  rw [read_x m c t p k hb, read_w m c t k q]

/-- An index of the array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v0).slice (win0_2.rect t)).set ↔ _
  rw [View.set_slice_whole, Rect.mem_set_unit]
  exact Iff.rfl

/-- Every index of the array lies in some point's block: row r in block r / 5000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- THE OUTPUT ARRAY AFTER THE REGION is x * W of the launch contents. -/
theorem final (c : Dev nD) :
    (dats m 0 c).arrAt 2 cfg0.N
      = matProd (m ((c : Thread nD τ).loc main_arg0)) (m ((c : Thread nD τ).loc main_arg4)) :=
  (dats m 0 c).arrAt_eq_of_cover 2 (matProd (V m c main_arg0) (V m c main_arg4))
    (fun t _ => flushed_eq m c t) (cover)

end Cert.KernelIdeal.Product

end
-- ==== Proof.LibSegment.lean ====
/-
  Row gathers and row scatter-adds with ONE index column, read at an index.

  The host programs index a table by a column of E signed words: `idx : [E, 1]`.
  * A gather of rows of `x : [N, K]` (or of entries of `x : [N]`) reads, at row `e`, the table row whose number
    is the word `idx[e, 0]` read signed and clamped into `[0, N - 1]` (`clampRow`).
  * An accumulating scatter of the rows of `upd : [E, K]` (or of the entries of `upd : [E]`) into `x` adds row `e`
    to the table row whose number is `idx[e, 0]` read signed, NOT clamped: a word outside `[0, N)` adds nothing.
    At the ideal instance the result at `(n, k)` is `x (n, k)` plus the sum, over every `e`, of
    `upd (e, k)` if `idx[e, 0] = n` and `0` otherwise.
  Everything is generic in the extents `N`, `E`, `K` and the word width; a program's printed dimension record
  is identified with the record here by `rfl`.
-/
import Idealize.ShloMosaic.Lib.ValueIdx
import Idealize.ShloMosaic.PureOps.Ideal.Laws

noncomputable section

open scoped BigOperators

namespace Idealize.ShloMosaic.SegmentIdx

open Idealize.ShloMosaic Idealize.ShloMosaic.ValueIdx

/-- A signed word clamped to a row number of a table with `N` rows: `min (max v 0) (N - 1)`. -/
def clampRow (N : Nat) (hN : 0 < N) {w : Nat} (v : BitVec w) : Fin N := ⟨min v.toInt.toNat (N - 1), by omega⟩

/-- A signed word that is a row number is its own clamp. -/
theorem clampRow_of_eq {N : Nat} (hN : 0 < N) {w : Nat} (v : BitVec w) (n : Fin N) (h : v.toInt = (n.val : ℤ)) :
    clampRow N hN v = n := by
  apply Fin.ext
  show min v.toInt.toNat (N - 1) = n.val
  rw [h, Int.toNat_natCast]
  have := n.isLt
  omega

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Gathers -/

section Gather
variable {α : Type}

/-- `x[idx]` for a table of rows: operand `[N, K]`, start indices `[E, 1]`, result `[E, K]`. -/
abbrev gatherRowsDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e` of the gather is the table's row `clampRow idx[e, 0]`. -/
theorem gatherRows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowsDims N E K wf) x idx (ix2 e k) = x (ix2 (clampRow N hN (idx (ix2 e 0))) k) := by
  unfold Host.gather
  congr 1
  funext a
  refine Fin.ext ?_
  match a with
  | ⟨0, _⟩ =>
    show (gatherRowsDims N E K wf).start (ix2 e k) idx 0 + (gatherRowsDims N E K wf).batchCoord (ix2 e k) 0
      + (gatherRowsDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E K wf).startIndexMap from List.mem_singleton.mpr rfl)]
    have hsi : (gatherRowsDims N E K wf).siIdx (ix2 e k) ⟨List.idxOf (0 : Fin 2) (gatherRowsDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowsDims N E K wf).start (ix2 e k) idx 1 + (gatherRowsDims N E K wf).batchCoord (ix2 e k) 1
      + (gatherRowsDims N E K wf).offCoord (ix2 e k) 1 = _
    rw [GatherDims.batchCoord_eq_zero _ _ _ List.not_mem_nil]
    have hs : (gatherRowsDims N E K wf).start (ix2 e k) idx 1 = 0 := by
      unfold GatherDims.start
      rw [dif_neg (fun h => Nat.one_ne_zero (congrArg Fin.val (List.mem_singleton.mp h)))]
    rw [hs]
    simp only [Nat.add_zero, Nat.zero_add]
    rfl

/-- `x[idx]` for a flat table: operand `[N]`, start indices `[E, 1]`, result `[E]`. -/
abbrev gatherFlatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table's entry `clampRow idx[e, 0]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlatDims N E wf) x idx (ix1 e) = x (ix1 (clampRow N hN (idx (ix2 e 0)))) := by
  unfold Host.gather
  congr 1
  funext a
  obtain rfl : a = 0 := Subsingleton.elim _ _
  refine Fin.ext ?_
  show (gatherFlatDims N E wf).start (ix1 e) idx 0 + (gatherFlatDims N E wf).batchCoord (ix1 e) 0
    + (gatherFlatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlatDims N E wf).startIndexMap from List.mem_singleton.mpr rfl)]
  have hsi : (gatherFlatDims N E wf).siIdx (ix1 e) ⟨List.idxOf (0 : Fin 1) (gatherFlatDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Accumulating scatters, at the ideal instance -/

section Scatter

/-- `x.at[idx].add(upd)` for a table of rows: operand `[N, K]`, scatter indices `[E, 1]`, updates `[E, K]`. -/
abbrev scatterRowsDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat}

/-- Update `(e, k')` lands on `(n, k)` exactly when the word `idx[e, 0]`, read signed, is `n` and `k' = k`. -/
theorem scatterRows_lands (wf : ScatterDims.WF ⟨2, ![N, K]⟩ ⟨2, ![E, 1]⟩ ⟨2, ![E, K]⟩ [1] [0] [0] 1)
    (idx : IVec ⟨2, ![E, 1]⟩ w) (e : Fin E) (k' : Fin K) (n : Fin N) (k : Fin K) :
    (scatterRowsDims N E K wf).resultIdx? (ix2 e k') idx = some (ix2 n k)
      ↔ ((idx (ix2 e 0)).toInt = (n.val : ℤ) ∧ k' = k) := by
  have hs0 : (scatterRowsDims N E K wf).start (ix2 e k') idx 0 = (idx (ix2 e 0)).toInt := by
    unfold ScatterDims.start
    rw [dif_pos (show (0 : Fin 2) ∈ (scatterRowsDims N E K wf).scatterDimsToOperandDims from List.mem_singleton.mpr rfl)]
    have hsi : (scatterRowsDims N E K wf).siIdx (ix2 e k') ⟨List.idxOf (0 : Fin 2) (scatterRowsDims N E K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (scatterRowsDims N E K wf).start (ix2 e k') idx 1 = 0 := by
    unfold ScatterDims.start
    rw [dif_neg (fun h => Nat.one_ne_zero (congrArg Fin.val (List.mem_singleton.mp h)))]
  have hw0 : (scatterRowsDims N E K wf).window (ix2 e k') 0 = 0 := rfl
  have hw1 : (scatterRowsDims N E K wf).window (ix2 e k') 1 = k'.val := rfl
  unfold ScatterDims.resultIdx?
  constructor
  · intro h
    split at h
    · rename_i hin
      have hf := Option.some.inj h
      have h0 := congrArg (fun f => (f 0).val) hf
      have h1 := congrArg (fun f => (f 1).val) hf
      simp only [hs0, hs1, hw0, hw1] at h0 h1
      have hin0 := hin 0
      rw [hs0, hw0] at hin0
      refine ⟨?_, Fin.ext ?_⟩
      · change ((idx (ix2 e 0)).toInt + ((0 : ℕ) : ℤ)).toNat = n.val at h0
        omega
      · change ((0 : ℤ) + (k'.val : ℤ)).toNat = k.val at h1
        omega
    · exact absurd h (by simp)
  · rintro ⟨hv, rfl⟩
    have hin0 : 0 ≤ (scatterRowsDims N E K wf).start (ix2 e k') idx 0 + (scatterRowsDims N E K wf).window (ix2 e k') 0
        ∧ (scatterRowsDims N E K wf).start (ix2 e k') idx 0 + (scatterRowsDims N E K wf).window (ix2 e k') 0
          < (⟨2, ![N, K]⟩ : Shape).size 0 := by
      rw [hs0, hw0, hv]
      have := n.isLt
      constructor
      · omega
      · show ((n.val : ℤ) + ((0 : ℕ) : ℤ)) < (N : ℤ)
        omega
    have hin1 : 0 ≤ (scatterRowsDims N E K wf).start (ix2 e k') idx 1 + (scatterRowsDims N E K wf).window (ix2 e k') 1
        ∧ (scatterRowsDims N E K wf).start (ix2 e k') idx 1 + (scatterRowsDims N E K wf).window (ix2 e k') 1
          < (⟨2, ![N, K]⟩ : Shape).size 1 := by
      rw [hs1, hw1]
      have := k'.isLt
      constructor
      · omega
      · show ((0 : ℤ) + (k'.val : ℤ)) < (K : ℤ)
        omega
    have hin : ∀ a, 0 ≤ (scatterRowsDims N E K wf).start (ix2 e k') idx a + (scatterRowsDims N E K wf).window (ix2 e k') a
        ∧ (scatterRowsDims N E K wf).start (ix2 e k') idx a + (scatterRowsDims N E K wf).window (ix2 e k') a
          < (⟨2, ![N, K]⟩ : Shape).size a := fun a =>
      match a with
      | ⟨0, _⟩ => hin0
      | ⟨1, _⟩ => hin1
    rw [dif_pos hin]
    refine congrArg some (funext fun a => Fin.ext ?_)
    match a with
    | ⟨0, _⟩ =>
      show ((scatterRowsDims N E K wf).start (ix2 e k') idx 0 + (scatterRowsDims N E K wf).window (ix2 e k') 0).toNat = n.val
      rw [hs0, hw0, hv]
      omega
    | ⟨1, _⟩ =>
      show ((scatterRowsDims N E K wf).start (ix2 e k') idx 1 + (scatterRowsDims N E K wf).window (ix2 e k') 1).toNat = k'.val
      rw [hs1, hw1]
      omega

/-- THE ROW SCATTER-ADD AT AN ENTRY: `x (n, k)` plus, over every update row `e`, `upd (e, k)` when the word
    `idx[e, 0]` is `n`. -/
theorem scatterAddRows_apply {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (n : Fin N) (k : Fin K) :
    Host.scatterAdd (F := Ideal) (scatterRowsDims N E K wf) x idx upd (ix2 n k)
      = x (ix2 n k) + ∑ e : Fin E, if (idx (ix2 e 0)).toInt = (n.val : ℤ) then upd (ix2 e k) else 0 := by
  show x (ix2 n k) + ∑ j ∈ Finset.univ.filter
      (fun j => (scatterRowsDims N E K wf).resultIdx? j idx = some (ix2 n k)), upd j = _
  congr 1
  rw [Finset.sum_filter, sum_idx2]
  refine Finset.sum_congr rfl fun e _ => ?_
  simp only [scatterRows_lands wf idx e _ n k]
  by_cases hv : (idx (ix2 e 0)).toInt = (n.val : ℤ)
  · simp only [hv, true_and, if_true]
    rw [Finset.sum_ite_eq' Finset.univ k (fun k' => upd (ix2 e k'))]
    simp
  · simp only [hv, false_and, if_false]
    exact Finset.sum_const_zero

/-- `x.at[idx].add(upd)` for a flat table: operand `[N]`, scatter indices `[E, 1]`, updates `[E]`. -/
abbrev scatterFlatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `n` exactly when the word `idx[e, 0]`, read signed, is `n`. -/
theorem scatterFlat_lands (wf : ScatterDims.WF ⟨1, ![N]⟩ ⟨2, ![E, 1]⟩ ⟨1, ![E]⟩ [] [0] [0] 1)
    (idx : IVec ⟨2, ![E, 1]⟩ w) (e : Fin E) (n : Fin N) :
    (scatterFlatDims N E wf).resultIdx? (ix1 e) idx = some (ix1 n) ↔ (idx (ix2 e 0)).toInt = (n.val : ℤ) := by
  have hs0 : (scatterFlatDims N E wf).start (ix1 e) idx 0 = (idx (ix2 e 0)).toInt := by
    unfold ScatterDims.start
    rw [dif_pos (show (0 : Fin 1) ∈ (scatterFlatDims N E wf).scatterDimsToOperandDims from List.mem_singleton.mpr rfl)]
    have hsi : (scatterFlatDims N E wf).siIdx (ix1 e) ⟨List.idxOf (0 : Fin 1) (scatterFlatDims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (scatterFlatDims N E wf).window (ix1 e) 0 = 0 := rfl
  unfold ScatterDims.resultIdx?
  constructor
  · intro h
    split at h
    · rename_i hin
      have hf := Option.some.inj h
      have h0 := congrArg (fun f => (f 0).val) hf
      simp only [hs0, hw0] at h0
      have hin0 := hin 0
      rw [hs0, hw0] at hin0
      change ((idx (ix2 e 0)).toInt + ((0 : ℕ) : ℤ)).toNat = n.val at h0
      omega
    · exact absurd h (by simp)
  · intro hv
    have hin0 : 0 ≤ (scatterFlatDims N E wf).start (ix1 e) idx 0 + (scatterFlatDims N E wf).window (ix1 e) 0
        ∧ (scatterFlatDims N E wf).start (ix1 e) idx 0 + (scatterFlatDims N E wf).window (ix1 e) 0
          < (⟨1, ![N]⟩ : Shape).size 0 := by
      rw [hs0, hw0, hv]
      have := n.isLt
      constructor
      · omega
      · show ((n.val : ℤ) + ((0 : ℕ) : ℤ)) < (N : ℤ)
        omega
    have hin : ∀ a, 0 ≤ (scatterFlatDims N E wf).start (ix1 e) idx a + (scatterFlatDims N E wf).window (ix1 e) a
        ∧ (scatterFlatDims N E wf).start (ix1 e) idx a + (scatterFlatDims N E wf).window (ix1 e) a
          < (⟨1, ![N]⟩ : Shape).size a := fun a =>
      match a with
      | ⟨0, _⟩ => hin0
    rw [dif_pos hin]
    refine congrArg some (funext fun a => Fin.ext ?_)
    match a with
    | ⟨0, _⟩ =>
      show ((scatterFlatDims N E wf).start (ix1 e) idx 0 + (scatterFlatDims N E wf).window (ix1 e) 0).toNat = n.val
      rw [hs0, hw0, hv]
      omega

/-- THE FLAT SCATTER-ADD AT AN ENTRY: `x n` plus, over every update `e`, `upd e` when the word `idx[e, 0]` is `n`. -/
theorem scatterAddFlat_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (scatterFlatDims N E wf) x idx upd (ix1 n)
      = x (ix1 n) + ∑ e : Fin E, if (idx (ix2 e 0)).toInt = (n.val : ℤ) then upd (ix1 e) else 0 := by
  show x (ix1 n) + ∑ j ∈ Finset.univ.filter
      (fun j => (scatterFlatDims N E wf).resultIdx? j idx = some (ix1 n)), upd j = _
  congr 1
  rw [Finset.sum_filter, sum_idx1]
  refine Finset.sum_congr rfl fun e _ => ?_
  simp only [scatterFlat_lands wf idx e n]

end Scatter

end Idealize.ShloMosaic.SegmentIdx

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibProjectThroughSum.lean ====
/-
  A projection moved through a weighted, selected sum of rows.

  Fix a finite family of "edges" e, each carrying a weight v e, a row X e of K numbers and a test P e saying whether the
  edge contributes. Projecting every row through a column w (the dot product of X e with w) and then adding up the
  contributing edges' weighted projections gives the same number as first adding up the contributing edges' weighted
  rows, entry by entry, and projecting the total:

      sum_e [P e] v e * (sum_k X e k * w k)  =  sum_k (sum_e [P e] v e * X e k) * w k.

  Over the reals this is distributivity and an exchange of the two finite sums. On the extended reals distributivity fails
  at the infinities, so the statement there asks every v e, X e k and w k to be a real number; both sides are then the
  coercion of the real identity.
-/
import Idealize.ShloMosaic.PureOps.Ideal

noncomputable section

open scoped BigOperators

namespace Cert.ProjectThroughSum

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A selected real, coerced, is the coercion of the selected real. -/
theorem ite_coe (p : Prop) [Decidable p] (a : ℝ) :
    (if p then (a : EReal) else 0) = ((if p then a else 0 : ℝ) : EReal) := by
  split <;> simp

/-- The identity over the reals: distribute each weighted projection over its row, then exchange the sums. -/
theorem project_sum_real {E K : ℕ} (P : Fin E → Prop) [DecidablePred P] (v : Fin E → ℝ) (X : Fin E → Fin K → ℝ)
    (w : Fin K → ℝ) :
    (∑ e, if P e then v e * ∑ k, X e k * w k else 0) = ∑ k, (∑ e, if P e then v e * X e k else 0) * w k := by
  simp_rw [Finset.sum_mul]
  rw [Finset.sum_comm]
  refine Finset.sum_congr rfl fun e _ => ?_
  by_cases h : P e
  · simp only [h, if_true, Finset.mul_sum, mul_assoc]
  · simp only [h, if_false, zero_mul, Finset.sum_const_zero]

/-- The identity on the extended reals, for weights, rows and a column that are real numbers. -/
theorem project_sum {E K : ℕ} (P : Fin E → Prop) [DecidablePred P] (v : Fin E → EReal) (X : Fin E → Fin K → EReal)
    (w : Fin K → EReal) (hv : ∀ e, ∃ r : ℝ, v e = r) (hX : ∀ e k, ∃ r : ℝ, X e k = r) (hw : ∀ k, ∃ r : ℝ, w k = r) :
    (∑ e, if P e then v e * ∑ k, X e k * w k else 0) = ∑ k, (∑ e, if P e then v e * X e k else 0) * w k := by
  choose vr hvr using hv
  choose Xr hXr using hX
  choose wr hwr using hw
  simp only [hvr, hXr, hwr, ← EReal.coe_mul, ← coe_sum, ite_coe]
  exact congrArg _ (project_sum_real P vr Xr wr)

end Cert.ProjectThroughSum

end
-- ==== Proof.LibAggregate.lean ====
/-
  Weighted aggregation of table rows along edges, and a matrix product moved through it.

  An edge list has E edges; edge e has a target row, given as a signed word ri[e, 0], a source row, given as a signed word
  ci[e, 0], and a weight v[e, 0]. Aggregating a table tbl with N rows and K columns along the edges produces the table

      (aggregate tbl)[n, k] = 0 + sum over the edges e whose target word is n of  v[e, 0] * tbl[src e, k],

  where src e is the source word clamped into [0, N - 1] (a gather clamps its start indices) and an edge whose target
  word is no row number adds nothing (an accumulating scatter drops it). As host operations this is: the weights' column
  spread over the K columns, times the gather of the table's rows, scatter-added into the zero table.

  Each entry of the aggregate is a finite sum of products of a weight and a table entry, so it is a real number when they
  are, and aggregating commutes with multiplying the table on the right by a matrix W:

      aggregate (tbl * W) = (aggregate tbl) * W,

  entry (n, q) of both sides being  sum_e [target e = n] v e * sum_k tbl[src e, k] * W[k, q]  by distributivity and an
  exchange of the two sums; this is where the entries have to be real numbers.
-/
import proofs.«168487_j89240830476477_2_alg».proof.Proof.LibSegment
import proofs.«168487_j89240830476477_2_alg».proof.Proof.LibDotGeneralPlain
import proofs.«168487_j89240830476477_2_alg».proof.Proof.LibHostBroadcast
import proofs.«168487_j89240830476477_2_alg».proof.Proof.LibProjectThroughSum

noncomputable section

open scoped BigOperators

namespace Cert.Aggregate

open Idealize.ShloMosaic Idealize.ShloMosaic.ValueIdx Idealize.ShloMosaic.SegmentIdx
open Cert.LibDotGeneralPlain Cert.LibHostBroadcast

variable {N E : ℕ}

/-- The aggregation of a table's rows along the edges, as the host computes it. -/
def aggregate (K : ℕ)
    (hg : GatherDims.WF ⟨2, ![N, K]⟩ ⟨2, ![E, 1]⟩ ⟨2, ![E, K]⟩ [1] [0] [] [0] [] 1 ![1, K])
    (hs : ScatterDims.WF ⟨2, ![N, K]⟩ ⟨2, ![E, 1]⟩ ⟨2, ![E, K]⟩ [1] [0] [0] 1)
    (h0 : (⟨0, ![]⟩ : Shape).BroadcastsInDim ⟨2, ![N, K]⟩ (![] : Fin 0 → Fin 2))
    (hv : (⟨2, ![E, 1]⟩ : Shape).BroadcastsInDim ⟨2, ![E, K]⟩ (![0, 1] : Fin 2 → Fin 2))
    (ri ci : IVec ⟨2, ![E, 1]⟩ 32) (v : FVec Ideal ⟨2, ![E, 1]⟩ .f32) (tbl : FVec Ideal ⟨2, ![N, K]⟩ .f32) :
    FVec Ideal ⟨2, ![N, K]⟩ .f32 :=
  Host.scatterAdd (F := Ideal) (scatterRowsDims N E K hs)
    (broadcastInDim ⟨2, ![N, K]⟩ ![] h0 (constant (F := Ideal) ⟨0, ![]⟩ .f32 0x00000000#32)) ri
    (mulf (broadcastInDim ⟨2, ![E, K]⟩ ![0, 1] hv v) (Host.gather (gatherRowsDims N E K hg) tbl ci))

/-- THE AGGREGATE AT AN ENTRY: the sum, over the edges whose target word is n, of the weight times the table's entry
    in the clamped source row. -/
theorem aggregate_apply {K : ℕ}
    (hg : GatherDims.WF ⟨2, ![N, K]⟩ ⟨2, ![E, 1]⟩ ⟨2, ![E, K]⟩ [1] [0] [] [0] [] 1 ![1, K])
    (hs : ScatterDims.WF ⟨2, ![N, K]⟩ ⟨2, ![E, 1]⟩ ⟨2, ![E, K]⟩ [1] [0] [0] 1)
    (h0 : (⟨0, ![]⟩ : Shape).BroadcastsInDim ⟨2, ![N, K]⟩ (![] : Fin 0 → Fin 2))
    (hv : (⟨2, ![E, 1]⟩ : Shape).BroadcastsInDim ⟨2, ![E, K]⟩ (![0, 1] : Fin 2 → Fin 2))
    (hN : 0 < N) (ri ci : IVec ⟨2, ![E, 1]⟩ 32) (v : FVec Ideal ⟨2, ![E, 1]⟩ .f32)
    (tbl : FVec Ideal ⟨2, ![N, K]⟩ .f32) (n : Fin N) (k : Fin K) :
    aggregate K hg hs h0 hv ri ci v tbl (ix2 n k)
      = ∑ e : Fin E, if (ri (ix2 e 0)).toInt = (n.val : ℤ)
          then v (ix2 e 0) * tbl (ix2 (clampRow N hN (ci (ix2 e 0))) k) else 0 := by
  unfold aggregate
  rw [scatterAddRows_apply, bcast_scalar_apply, constant_apply, Ideal.ofBits_zero_f32, zero_add]
  refine Finset.sum_congr rfl fun e _ => ?_
  rw [mulf_apply, bcast_a1_ab_apply _ rfl, gatherRows_apply hN]

/-- AGGREGATING COMMUTES WITH A MATRIX PRODUCT on tables, weights and matrices of real numbers: aggregating the rows of
    x * W is the aggregate of x's rows times W. The two aggregates run over the same edges with the same weights; only
    the number of columns differs (Q on the left, K on the right). -/
theorem aggregate_matProd {K Q : ℕ}
    (hgK : GatherDims.WF ⟨2, ![N, K]⟩ ⟨2, ![E, 1]⟩ ⟨2, ![E, K]⟩ [1] [0] [] [0] [] 1 ![1, K])
    (hsK : ScatterDims.WF ⟨2, ![N, K]⟩ ⟨2, ![E, 1]⟩ ⟨2, ![E, K]⟩ [1] [0] [0] 1)
    (h0K : (⟨0, ![]⟩ : Shape).BroadcastsInDim ⟨2, ![N, K]⟩ (![] : Fin 0 → Fin 2))
    (hvK : (⟨2, ![E, 1]⟩ : Shape).BroadcastsInDim ⟨2, ![E, K]⟩ (![0, 1] : Fin 2 → Fin 2))
    (hgQ : GatherDims.WF ⟨2, ![N, Q]⟩ ⟨2, ![E, 1]⟩ ⟨2, ![E, Q]⟩ [1] [0] [] [0] [] 1 ![1, Q])
    (hsQ : ScatterDims.WF ⟨2, ![N, Q]⟩ ⟨2, ![E, 1]⟩ ⟨2, ![E, Q]⟩ [1] [0] [0] 1)
    (h0Q : (⟨0, ![]⟩ : Shape).BroadcastsInDim ⟨2, ![N, Q]⟩ (![] : Fin 0 → Fin 2))
    (hvQ : (⟨2, ![E, 1]⟩ : Shape).BroadcastsInDim ⟨2, ![E, Q]⟩ (![0, 1] : Fin 2 → Fin 2))
    (hN : 0 < N) (ri ci : IVec ⟨2, ![E, 1]⟩ 32) (v : FVec Ideal ⟨2, ![E, 1]⟩ .f32)
    (x : FVec Ideal ⟨2, ![N, K]⟩ .f32) (W : FVec Ideal ⟨2, ![K, Q]⟩ .f32)
    (hv : ∀ i, ∃ r : ℝ, v i = r) (hx : ∀ i, ∃ r : ℝ, x i = r) (hW : ∀ i, ∃ r : ℝ, W i = r) :
    aggregate Q hgQ hsQ h0Q hvQ ri ci v (matProd x W) = matProd (aggregate K hgK hsK h0K hvK ri ci v x) W := by
  funext i
  obtain ⟨n, q, rfl⟩ : ∃ (n : Fin N) (q : Fin Q), i = ix2 n q := ⟨i 0, i 1, eq_ix2 i⟩
  rw [aggregate_apply hgQ hsQ h0Q hvQ hN, matProd_apply]
  simp only [matProd_apply, aggregate_apply hgK hsK h0K hvK hN]
  exact Cert.ProjectThroughSum.project_sum (fun e => (ri (ix2 e 0)).toInt = (n.val : ℤ)) (fun e => v (ix2 e 0))
    (fun e k => x (ix2 (clampRow N hN (ci (ix2 e 0))) k)) (fun k => W (ix2 k q))
    (fun e => hv _) (fun e k => hx _) (fun k => hW _)

end Cert.Aggregate

end
-- ==== Proof.Layer.lean ====
/-
  The graph-convolution layer as one function of the argument arrays.

  Arguments: node features x [50000, 256], per edge a target row word, a source row word and a weight (three arrays of
  length 800000), a weight matrix W [256, 256] and a bias b [256]. Both programs normalise the source words the same way
  (a negative word has 50000 added to it), turn the three edge arrays into columns [800000, 1], aggregate a table of
  50000 rows along the edges, and add the bias to every row:

      layerOut tbl  =  aggregate tbl + (b spread over the rows).

  The kernel aggregates the table x * W; the reference aggregates x and multiplies the aggregate by W. Because
  aggregating commutes with the product when the entries are real numbers, the two results are the same array.

  The shapes' side conditions (which axes broadcast, that the gather's and the scatter's dimension numbers are well
  formed) are propositions; they are bundled in `Wf` so that each program's printed term, which cites its own proofs
  of them, unfolds to the functions here.
-/
import proofs.«168487_j89240830476477_2_alg».proof.Proof.LibAggregate

noncomputable section

open scoped BigOperators

namespace Cert.Layer

open Idealize.ShloMosaic Idealize.ShloMosaic.ValueIdx Idealize.ShloMosaic.SegmentIdx
open Cert.LibDotGeneralPlain Cert.Aggregate

abbrev SNK : Shape := ⟨2, ![50000, 256]⟩
abbrev SE : Shape := ⟨1, ![800000]⟩
abbrev SE1 : Shape := ⟨2, ![800000, 1]⟩
abbrev SEK : Shape := ⟨2, ![800000, 256]⟩
abbrev SKK : Shape := ⟨2, ![256, 256]⟩
abbrev SK : Shape := ⟨1, ![256]⟩
abbrev S1K : Shape := ⟨2, ![1, 256]⟩
abbrev S0 : Shape := ⟨0, ![]⟩

/-- The side conditions of the layer's host operations. -/
structure Wf : Prop where
  colE : SE.BroadcastsInDim SE1 (![0] : Fin 1 → Fin 2)
  fillE : S0.BroadcastsInDim SE (![] : Fin 0 → Fin 1)
  spreadE : SE1.BroadcastsInDim SEK (![0, 1] : Fin 2 → Fin 2)
  fillNK : S0.BroadcastsInDim SNK (![] : Fin 0 → Fin 2)
  rowK : SK.BroadcastsInDim S1K (![1] : Fin 1 → Fin 2)
  spreadRows : S1K.BroadcastsInDim SNK (![0, 1] : Fin 2 → Fin 2)
  gatherWf : GatherDims.WF SNK SE1 SEK [1] [0] [] [0] [] 1 ![1, 256]
  scatterWf : ScatterDims.WF SNK SE1 SEK [1] [0] [0] 1

variable (h : Wf)

/-- The target rows as a column. -/
def targetCol (row : IVec SE 32) : IVec SE1 32 := broadcastInDim SE1 ![0] h.colE row

/-- The source rows, a negative word moved up by the number of rows, as a column. -/
def sourceCol (col : IVec SE 32) : IVec SE1 32 :=
  broadcastInDim SE1 ![0] h.colE
    (select (cmpi .slt col (broadcastInDim SE ![] h.fillE (constantI S0 32 0#32)))
      (addi col (broadcastInDim SE ![] h.fillE (constantI S0 32 50000#32))) col)

/-- The weights as a column. -/
def weightCol (val : FVec Ideal SE .f32) : FVec Ideal SE1 .f32 := broadcastInDim SE1 ![0] h.colE val

/-- The bias as a row, spread over the 50000 rows. -/
def biasRows (b : FVec Ideal SK .f32) : FVec Ideal SNK .f32 :=
  broadcastInDim SNK ![0, 1] h.spreadRows (broadcastInDim S1K ![1] h.rowK b)

/-- A table aggregated along the edges. -/
def aggregated (row col : IVec SE 32) (val : FVec Ideal SE .f32) (tbl : FVec Ideal SNK .f32) : FVec Ideal SNK .f32 :=
  aggregate 256 h.gatherWf h.scatterWf h.fillNK h.spreadE (targetCol h row) (sourceCol h col) (weightCol h val) tbl

/-- THE LAYER: the aggregate of x * W plus the bias on every row. -/
def layerOut (x : FVec Ideal SNK .f32) (row col : IVec SE 32) (val : FVec Ideal SE .f32) (W : FVec Ideal SKK .f32)
    (b : FVec Ideal SK .f32) : FVec Ideal SNK .f32 :=
  addf (aggregated h row col val (matProd x W)) (biasRows h b)

/-- A column of real weights is real. -/
theorem weightCol_real (val : FVec Ideal SE .f32) (hval : ∀ i, ∃ r : ℝ, val i = r) (i : SE1.Idx) :
    ∃ r : ℝ, weightCol h val i = r := by
  obtain ⟨e, u, rfl⟩ : ∃ (e : Fin 800000) (u : Fin 1), i = ix2 e u := ⟨i 0, i 1, eq_ix2 i⟩
  unfold weightCol
  rw [Cert.LibHostBroadcast.bcast_a_a1_apply _ rfl]
  exact hval _

/-- THE TWO ORDERS AGREE: multiplying the aggregate of x by W and adding the bias is the layer, for real x, weights
    and W. -/
theorem project_last_eq (x : FVec Ideal SNK .f32) (row col : IVec SE 32) (val : FVec Ideal SE .f32)
    (W : FVec Ideal SKK .f32) (b : FVec Ideal SK .f32)
    (hx : ∀ i, ∃ r : ℝ, x i = r) (hval : ∀ i, ∃ r : ℝ, val i = r) (hW : ∀ i, ∃ r : ℝ, W i = r) :
    addf (matProd (aggregated h row col val x) W) (biasRows h b) = layerOut h x row col val W b := by
  unfold layerOut aggregated
  rw [aggregate_matProd h.gatherWf h.scatterWf h.fillNK h.spreadE h.gatherWf h.scatterWf h.fillNK h.spreadE
    (by decide : 0 < 50000) _ _ _ x W (weightCol_real h val hval) hx hW]

end Cert.Layer

end
-- ==== Proof.KernelResult.lean ====
/-
  The kernel program's result is the layer of its launch arrays.

  After the region the output array holds x * W (the region's ten blocks tile it). The nineteen host operations after the
  region read that array and the other five arguments, which nothing has written: they normalise the source words,
  gather the rows of x * W, weight them, scatter-add them into the zero table by target row, and add the bias to every
  row. Operation by operation that is `layerOut` of the launch arrays.
-/
import proofs.«168487_j89240830476477_2_alg».proof.Proof.RegionProduct
import proofs.«168487_j89240830476477_2_alg».proof.Proof.Layer
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Cert.LibDotGeneralPlain Cert.Layer

variable (m : (ℓ : Loc nD τ sig) → Buf (Elt Ideal) ℓ) (ρ : Dev nD → PrngReg)

/-- The host operations' side conditions, as this program states them. -/
theorem wf : Cert.Layer.Wf :=
  ⟨Facts₀.bcast_S800000_S800000x1_0, Facts₀.bcast_S_S800000, Facts₀.bcast_S800000x1_S800000x256_0_1,
    Facts₀.bcast_S_S50000x256, Facts₀.bcast_S256_S1x256_1, Facts₀.bcast_S1x256_S50000x256_0_1,
    Facts₀.gather_S50000x256_S800000x1_S800000x256_1_0_n_n_0_1_1256_wf,
    Facts₀.scatter_S50000x256_S800000x1_S800000x256_1_0_0_1_wf⟩

set_option maxHeartbeats 2000000 in
/-- WHAT THE LINES AFTER THE REGION LEAVE in the result buffer: the layer of the launch arrays. -/
theorem tail_value (c : Dev nD) :
    Pipeline.afterTail₀ cfgs (dats m) 0 (V0 m) [hostOps1] c main_v16
      = layerOut wf (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e0 : Pipeline.withArrays (cfgs 0).spec c (V0 m c) (fun w => (dats m 0 c).arrAt w (cfgs 0).N)
      (Proc.devRef .tc main_v0)
      = matProd (m ((c : Thread nD τ).loc main_arg0)) (m ((c : Thread nD τ).loc main_arg4)) :=
    (Pipeline.withArrays_arr spec0 launch0.win.arr_inj c _ _ 2).trans (Cert.KernelIdeal.Product.final m c)
  have e1 : Pipeline.withArrays (cfgs 0).spec c (V0 m c) (fun w => (dats m 0 c).arrAt w (cfgs 0).N)
      (Proc.devRef .tc main_arg1) = m ((c : Thread nD τ).loc main_arg1) :=
    Pipeline.withArrays_of_ne spec0 c (V0 m c) _ main_arg1 (by exact (by decide : ∀ w, Pipeline.arrRef spec0 w ≠ main_arg1))
  have e2 : Pipeline.withArrays (cfgs 0).spec c (V0 m c) (fun w => (dats m 0 c).arrAt w (cfgs 0).N)
      (Proc.devRef .tc main_arg2) = m ((c : Thread nD τ).loc main_arg2) :=
    Pipeline.withArrays_of_ne spec0 c (V0 m c) _ main_arg2 (by exact (by decide : ∀ w, Pipeline.arrRef spec0 w ≠ main_arg2))
  have e3 : Pipeline.withArrays (cfgs 0).spec c (V0 m c) (fun w => (dats m 0 c).arrAt w (cfgs 0).N)
      (Proc.devRef .tc main_arg3) = m ((c : Thread nD τ).loc main_arg3) :=
    Pipeline.withArrays_of_ne spec0 c (V0 m c) _ main_arg3 (by exact (by decide : ∀ w, Pipeline.arrRef spec0 w ≠ main_arg3))
  have e5 : Pipeline.withArrays (cfgs 0).spec c (V0 m c) (fun w => (dats m 0 c).arrAt w (cfgs 0).N)
      (Proc.devRef .tc main_arg5) = m ((c : Thread nD τ).loc main_arg5) :=
    Pipeline.withArrays_of_ne spec0 c (V0 m c) _ main_arg5 (by exact (by decide : ∀ w, Pipeline.arrRef spec0 w ≠ main_arg5))
  unfold Pipeline.afterTail₀
  show StableHlo.after hostOps1 _ (Proc.devRef .tc main_v16) = _
  after_results
  rw [e0, e1, e2, e3, e5]
  rfl

/-- THE KERNEL PROGRAM'S RUN: every weakly fair execution terminates with the result buffer at the layer of the launch
    arrays and the six arguments unchanged. -/
theorem run : θ_run defs (onTc (τ := τ) (main (F := Ideal))) ⟨m, fun _ => 0, ρ⟩ fun r => ∀ c : Dev nD,
      r.2.mem ((c.tc : Thread nD τ).loc main_v16)
        = layerOut wf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v16 (Pipeline.mem_restRefs_of main_v16 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.Result

end
-- ==== Proof.ReferenceResult.lean ====
/-
  The reference program's result is the same layer.

  The reference normalises the source words, gathers the rows of x, weights them, scatter-adds them into the zero table
  by target row, multiplies that aggregate by W and adds the bias to every row. Its one matrix product comes AFTER the
  aggregation where the kernel's comes before it; aggregating commutes with the product on real entries, so for real x,
  weights and W the reference's result is the layer too.
-/
import proofs.«168487_j89240830476477_2_alg».proof.ReferenceIdeal
import proofs.«168487_j89240830476477_2_alg».proof.Proof.Layer

noncomputable section

namespace Cert.ReferenceIdeal.Result

open Cert.ReferenceIdeal Idealize.ShloMosaic Cert.LibDotGeneralPlain Cert.Layer

variable [Cert.ReferenceIdeal.Facts]

/-- The reference's composed term of its arguments is the layer, whichever proofs of the side conditions the layer is
    stated with. -/
theorem result_eq (hK : Cert.Layer.Wf) (x : FVec Ideal S50000x256 .f32) (row col : IVec S800000 32)
    (val : FVec Ideal S800000 .f32) (W : FVec Ideal S256x256 .f32) (b : FVec Ideal S256 .f32)
    (hx : ∀ i, ∃ r : ℝ, x i = r) (hval : ∀ i, ∃ r : ℝ, val i = r) (hW : ∀ i, ∃ r : ℝ, W i = r) :
    addf (Host.dotGeneral (F := Ideal) dot_S50000x256_S256x256_S50000x256_1_0_0_1_n_n none
        (Host.scatterAdd (F := Ideal) scatter_S50000x256_S800000x1_S800000x256_1_0_0_1
          (broadcastInDim S50000x256 ![] Facts₀.bcast_S_S50000x256 (constant (F := Ideal) S_ .f32 0x00000000#32))
          (broadcastInDim S800000x1 ![0] Facts₀.bcast_S800000_S800000x1_0 row)
          (mulf (broadcastInDim S800000x256 ![0, 1] Facts₀.bcast_S800000x1_S800000x256_0_1
              (broadcastInDim S800000x1 ![0] Facts₀.bcast_S800000_S800000x1_0 val))
            (Host.gather gather_S50000x256_S800000x1_S800000x256_1_0_n_n_0_1_1256 x
              (broadcastInDim S800000x1 ![0] Facts₀.bcast_S800000_S800000x1_0
                (select (cmpi .slt col (broadcastInDim S800000 ![] Facts₀.bcast_S_S800000 (constantI S_ 32 0#32)))
                  (addi col (broadcastInDim S800000 ![] Facts₀.bcast_S_S800000 (constantI S_ 32 50000#32))) col)))))
        W)
      (broadcastInDim S50000x256 ![0, 1] Facts₀.bcast_S1x256_S50000x256_0_1
        (broadcastInDim S1x256 ![1] Facts₀.bcast_S256_S1x256_1 b))
    = layerOut hK x row col val W b := by
  have hdot : ∀ (l : FVec Ideal S50000x256 .f32) (r : FVec Ideal S256x256 .f32),
      Host.dotGeneral (F := Ideal) dot_S50000x256_S256x256_S50000x256_1_0_0_1_n_n none l r = matProd l r :=
    fun l r => dotGeneral_plain_eq dot_S50000x256_S256x256_S50000x256_1_0_0_1_n_n rfl none .single l r
  rw [hdot]
  exact project_last_eq hK x row col val W b hx hval hW

end Cert.ReferenceIdeal.Result

end
-- ==== Proof.LibFiniteEntry.lean ====
/-
  An extended real whose absolute value is below the float +infinity is a real number.

  A "every input is finite" precondition compares |v| = max(v, -v) with the f32 word 0x7F800000, which denotes
  +infinity. On the extended reals |v| < +inf fails exactly at v = +inf and at v = -inf (whose absolute value is
  +inf), so it holds exactly of the real numbers.
-/
import Idealize.ShloMosaic.PureOps.Ideal

noncomputable section

namespace Cert.FiniteEntry

open Idealize.ShloMosaic

/-- The f32 word 0x7F800000 is +infinity. -/
theorem ofBits_pos_inf : Ideal.ofBits .f32 0x7F800000#32 = ⊤ := by simp [Ideal.ofBits, Ideal.ieee]

/-- An extended real whose absolute value max(v, -v) is below the float +infinity is a real number. -/
theorem real_of_abs_lt {v : EReal}
    (h : Ideal.cmp .olt (max v (-v)) (Ideal.ofBits .f32 0x7F800000#32) = 1#1) : ∃ r : ℝ, v = r := by
  rw [ofBits_pos_inf] at h
  induction v using EReal.rec with
  | bot => simp [Ideal.cmp] at h
  | coe r => exact ⟨r, rfl⟩
  | top => simp [Ideal.cmp] at h

end Cert.FiniteEntry

end
-- ==== Proof.RealEntries.lean ====
/-
  From the precondition to real entries.

  The precondition is the conjunction of four tests, one per float argument: every entry v of the array satisfies
  |v| < +inf, the absolute value taken as max(v, -v) and +inf written as the f32 word 0x7F800000. On the extended reals
  the test fails exactly at the two infinities, so an array that passes it has real numbers for entries. The layer's
  law needs this of x, of the edge weights and of W (the bias only ever gets added, which needs nothing).
-/
import proofs.«168487_j89240830476477_2_alg».proof.Pre_finite_inputs
import proofs.«168487_j89240830476477_2_alg».proof.Proof.LibFiniteEntry
import Idealize.ShloMosaic.Lib.ReduceAll
import Idealize.ShloMosaic.Lib.Affine
import Idealize.ShloMosaic.Lib.ValueIdx

noncomputable section

namespace Cert.RealEntries

open Idealize.ShloMosaic Idealize.ShloMosaic.ValueIdx Cert.Pre_finite_inputs

instance : Subsingleton S_.Idx := ⟨fun a b => funext fun d => d.elim0⟩

/-- Arrays that pass the precondition have real entries (the three the law uses). -/
theorem real_of_pre [Cert.Pre_finite_inputs.Facts] (x : FVec Ideal S50000x256 .f32) (row col : IVec S800000 32)
    (val : FVec Ideal S800000 .f32) (W : FVec Ideal S256x256 .f32) (b : FVec Ideal S256 .f32)
    (h : Cert.Pre_finite_inputs.fn (F := Ideal) x row col val W b = fun _ => 1#1) :
    (∀ i, ∃ r : ℝ, x i = r) ∧ (∀ i, ∃ r : ℝ, val i = r) ∧ (∀ i, ∃ r : ℝ, W i = r) := by
  have h0 := congrFun h ix0
  dsimp only [Cert.Pre_finite_inputs.fn, Cert.Pre_finite_inputs.fn_part1] at h0
  obtain ⟨h123, -⟩ := IntOp.andi_eq_one.mp h0
  obtain ⟨h12, h3⟩ := IntOp.andi_eq_one.mp h123
  obtain ⟨h1, h2⟩ := IntOp.andi_eq_one.mp h12
  refine ⟨fun i => ?_, fun i => ?_, fun i => ?_⟩
  · exact Cert.FiniteEntry.real_of_abs_lt (Host.reduce_andi_all _ _ _ _ _ h1 i)
  · exact Cert.FiniteEntry.real_of_abs_lt (Host.reduce_andi_all _ _ _ _ _ h2 i)
  · exact Cert.FiniteEntry.real_of_abs_lt (Host.reduce_andi_all _ _ _ _ _ h3 i)

end Cert.RealEntries

end
-- ==== Proof.lean ====
/-
  A graph-convolution layer: sparse aggregation and a dense projection, in either order.

  Inputs: node features x [50000, 256]; 800000 edges, each with a target row, a source row and a weight; a weight
  matrix W [256, 256]; a bias b [256]. The layer's output at node n and channel q is

      out[n, q] = sum over the edges e with target n of  weight e * (x * W)[source e, q]  +  b[q],

  a source word clamped into the rows as a gather clamps it, an edge whose target is no row dropped as an accumulating
  scatter drops it.

  The kernel program computes y = x * W first, in a region whose ten grid points each multiply a block of 5000 rows of
  x by the whole of W; the blocks tile y (Proof/RegionProduct.lean). Its host operations then gather the rows of y,
  weight them, scatter-add them into the zero table and add the bias: the layer (Proof/KernelResult.lean, over
  Proof/Layer.lean's one function `layerOut`).

  The reference program aggregates x itself along the same edges and multiplies the aggregate by W afterwards. Entry
  (n, q) of that is  sum_k (sum_e [target e = n] weight e * x[source e, k]) * W[k, q],  which equals the kernel's
  sum_e [target e = n] weight e * (sum_k x[source e, k] * W[k, q])  by distributing each product over its finite sum
  and exchanging the two sums (Proof/LibProjectThroughSum.lean, Proof/LibAggregate.lean). On the extended reals
  distributivity fails at the infinities: this is the one place the precondition is used, which makes every entry of
  x, of the weights and of W a real number (Proof/RealEntries.lean). The bias is only ever added and needs nothing.

  The three frames: the two kernel programs' are their region's launch, body and write-back at every grid point and the
  host lines after it, imported from the generated frame modules; the reference has no region and its frame is its
  run with the result forgotten. The kernel's idealization rewrote no operation, so `preserves` has nothing to state.
-/
import proofs.«168487_j89240830476477_2_alg».proof.Defs
import proofs.«168487_j89240830476477_2_alg».proof.Proof.Gen.Kernel
import proofs.«168487_j89240830476477_2_alg».proof.Proof.Gen.Kernel.Frame
import proofs.«168487_j89240830476477_2_alg».proof.Proof.Gen.KernelIdeal
import proofs.«168487_j89240830476477_2_alg».proof.Proof.Gen.KernelIdeal.Frame
import proofs.«168487_j89240830476477_2_alg».proof.Proof.Gen.ReferenceIdeal
import proofs.«168487_j89240830476477_2_alg».proof.Proof.Gen.ReferenceIdeal.Run
import proofs.«168487_j89240830476477_2_alg».proof.Proof.Gen.Pre_finite_inputs
import proofs.«168487_j89240830476477_2_alg».proof.Proof.KernelResult
import proofs.«168487_j89240830476477_2_alg».proof.Proof.ReferenceResult
import proofs.«168487_j89240830476477_2_alg».proof.Proof.RealEntries
import Idealize.ShloMosaic.Adequacy
import Idealize.ShloMosaic.Init

noncomputable section

namespace Cert.Proof

open Idealize.ShloMosaic Idealize.SL.Sem

/-- The kernel program runs, nothing faults, and its arguments end unchanged. -/
theorem frame_kernel : Cert.frame_Kernel := fun m ρ _ => Cert.Kernel.Gen.frame m ρ

/-- The same of its idealization. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the layer of the arguments: the kernel's run says so outright; the reference's
    composed term is the layer because aggregating commutes with the product on the real entries the precondition
    gives, once its arguments are rewritten to the kernel's by their agreement. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hval, hW⟩ := Cert.RealEntries.real_of_pre _ _ _ _ _ _ (hpre c)
  rw [(hagree c).1, (hagree c).2.1, (hagree c).2.2.1, (hagree c).2.2.2.1, (hagree c).2.2.2.2.1,
    (hagree c).2.2.2.2.2]
  exact Cert.ReferenceIdeal.Result.result_eq Cert.KernelIdeal.Result.wf _ _ _ _ _ _ hx hval hW

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
